-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1024x16384 : Shape := ⟨2, ![1024, 16384]⟩
abbrev S128x64 : Shape := ⟨2, ![128, 64]⟩
abbrev S128x1 : Shape := ⟨2, ![128, 1]⟩
abbrev S8x16384 : Shape := ⟨2, ![8, 16384]⟩
abbrev S64x16384 : Shape := ⟨2, ![64, 16384]⟩
abbrev S128x16384 : Shape := ⟨2, ![128, 16384]⟩
abbrev S128 : Shape := ⟨1, ![128]⟩
abbrev S16x16384 : Shape := ⟨2, ![16, 16384]⟩

abbrev nBuf : Space → Nat
  | .hbm => 24
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .bf16⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S16384x1, .f32⟩
  | .hbm, ⟨9, _⟩ => ⟨S1024x16384, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S16384x64, .bf16⟩
  | .local _ .vmem, ⟨3, _⟩ => ⟨S1x16384, .f32⟩
  | .local _ .vmem, ⟨4, _⟩ => ⟨S128x1, .f32⟩
  | .local _ .vmem, ⟨5, _⟩ => ⟨S128x1, .f32⟩
  | .local _ .vmem, ⟨6, _⟩ => ⟨S8x16384, .f32⟩
  | .local _ .vmem, ⟨7, _⟩ => ⟨S8x16384, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  inb_S128x64_S128x64_0_0 : ∀ a, (![0, 0] : Fin 2 → Nat) a + S128x64.size a ≤ S128x64.size a
  h_S128x64 : 0 < S128x64.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  transposes_S16384x64_p1_0_S64x16384 : S16384x64.Transposes [1, 0] S64x16384
  reduces_S128x64_S128 : S128x64.Reduces [1] S128
  shapeCasts_S128_S128x1 : S128.ShapeCasts S128x1
  broadcasts_S128x1_S128x16384 : S128x1.Broadcasts S128x16384
  broadcasts_S1x16384_S128x16384 : S1x16384.Broadcasts S128x16384
  reduces_S128x16384_S128 : S128x16384.Reduces [1] S128
  inb_S128x1_S128x1_0_0 : ∀ a, (![0, 0] : Fin 2 → Nat) a + S128x1.size a ≤ S128x1.size a
  h_S128x1 : 0 < S128x1.numel
  slices_S128x16384_o0_0_S16x16384 : S128x16384.Slices ![0, 0] S16x16384
  reduces_S16x16384_S16384 : S16x16384.Reduces [0] S16384
  inb_S8x16384_S1x16384_0_0 : ∀ a, (![0, 0] : Fin 2 → Nat) a + S1x16384.size a ≤ S8x16384.size a
  shapeCasts_S1x16384_S16384 : S1x16384.ShapeCasts S16384
  shapeCasts_S16384_S1x16384 : S16384.ShapeCasts S1x16384
  slices_S128x16384_o16_0_S16x16384 : S128x16384.Slices ![16, 0] S16x16384
  inb_S8x16384_S1x16384_1_0 : ∀ a, (![1, 0] : Fin 2 → Nat) a + S1x16384.size a ≤ S8x16384.size a
  slices_S128x16384_o32_0_S16x16384 : S128x16384.Slices ![32, 0] S16x16384
  inb_S8x16384_S1x16384_2_0 : ∀ a, (![2, 0] : Fin 2 → Nat) a + S1x16384.size a ≤ S8x16384.size a
  slices_S128x16384_o48_0_S16x16384 : S128x16384.Slices ![48, 0] S16x16384
  inb_S8x16384_S1x16384_3_0 : ∀ a, (![3, 0] : Fin 2 → Nat) a + S1x16384.size a ≤ S8x16384.size a
  slices_S128x16384_o64_0_S16x16384 : S128x16384.Slices ![64, 0] S16x16384
  inb_S8x16384_S1x16384_4_0 : ∀ a, (![4, 0] : Fin 2 → Nat) a + S1x16384.size a ≤ S8x16384.size a
  slices_S128x16384_o80_0_S16x16384 : S128x16384.Slices ![80, 0] S16x16384
  inb_S8x16384_S1x16384_5_0 : ∀ a, (![5, 0] : Fin 2 → Nat) a + S1x16384.size a ≤ S8x16384.size a
  slices_S128x16384_o96_0_S16x16384 : S128x16384.Slices ![96, 0] S16x16384
  inb_S8x16384_S1x16384_6_0 : ∀ a, (![6, 0] : Fin 2 → Nat) a + S1x16384.size a ≤ S8x16384.size a
  slices_S128x16384_o112_0_S16x16384 : S128x16384.Slices ![112, 0] S16x16384
  inb_S8x16384_S1x16384_7_0 : ∀ a, (![7, 0] : Fin 2 → Nat) a + S1x16384.size a ≤ S8x16384.size a
  shapeCasts_S16384x1_S16384 : S16384x1.ShapeCasts S16384
  reducesTo_S1024x16384_S16384_d0 : S1024x16384.ReducesTo [0] S16384
  bcast_S_S16384 : S_.BroadcastsInDim S16384 (![] : Fin 0 → Fin S16384.rank)
  reducesTo_S16384_S_d0 : S16384.ReducesTo [0] S_
  dot_S128x64_S64x16384_S128x16384_1_0_0_1_n_n_wf : DotDims.WF S128x64 S64x16384 S128x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16384.size a ≤ S1024x16384.size a
  hwx0_4 : ∀ i : grid0.Coords, EltTy.bits .f32 = 32 ∨ (Rect.block (s := S1024x16384) S8x16384.size (cc0_transform_4 i) (hinb0_4 i)).WholeWords (EltTy.packing .f32)

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S8x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S64x16384 : Shape := ⟨2, ![64, 16384]⟩
abbrev S32768 : Shape := ⟨1, ![32768]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S64x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S32768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x64_S64x16384_1_0 : S16384x64.Transposes [1, 0] S64x16384
  bcast_S_S16384x16384 : S_.BroadcastsInDim S16384x16384 (![] : Fin 0 → Fin S16384x16384.rank)
  reducesTo_S16384x16384_S16384_d0 : S16384x16384.ReducesTo [0] S16384
  reducesTo_S16384x16384_S16384_d1 : S16384x16384.ReducesTo [1] S16384
  concatenates_S16384_S16384_S32768_d0 : Shape.Concatenates [S16384, S16384] S32768 0
  reducesTo_S32768_S_d0 : S32768.ReducesTo [0] S_
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Spec.lean ====
/-
  The mathematics of the chamfer distance, free of both programs.

  For two point clouds `a, b : 16384 × 64` (extended reals at the ideal instance) the squared distance between row `i`
  of `a` and row `j` of `b` is taken by the Gram identity, `(|a i|² + |b j|²) − 2 · ⟨a i, b j⟩`; a distance is the
  square root of that number clamped below at zero; and the result is the mean, over all 32768 points, of each point's
  distance to the nearest point of the other cloud.

  Two programs compute that mean differently.  One clamps and takes roots of all 16384² squared distances and then
  takes minima along rows and along columns.  The other takes the minima of the raw squared distances first — the
  column minimum in two stages, groups of sixteen consecutive rows and then all 1024 groups — and clamps and takes
  roots of the 2 · 16384 minima only.  They agree because `x ↦ √(max x 0)` is monotone on the extended reals
  (a negative argument's root is the bottom element here), so it commutes with a minimum over a nonempty finite
  family, and because a minimum of minima over a partition is the minimum over the whole.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A point cloud: 16384 points of 64 coordinates. -/
abbrev Cloud : Type := (⟨2, ![16384, 64]⟩ : Shape).Idx → EReal

/-- The literal `2.0`, kept as the word both programs print. -/
def two : EReal := Ideal.ofBits .f32 0x40000000#32
/-- The literal `0.0` both programs clamp at. -/
def zeroW : EReal := Ideal.ofBits .f32 0x00000000#32
/-- The literal `+inf` every minimum starts from. -/
def infW : EReal := Ideal.ofBits .f32 0x7F800000#32

/-- The minimum of a finite family, from a starting value. -/
def fmin {n : Nat} (init : EReal) (f : Fin n → EReal) : EReal := (Finset.univ : Finset (Fin n)).fold min init f

/-- `|x i|²`: the sum of the squares of row `i`. -/
def nrm (x : Cloud) (i : Fin 16384) : EReal := ∑ k : Fin 64, x (ix2 i k) * x (ix2 i k)
/-- `⟨a i, b j⟩`. -/
def dotp (a b : Cloud) (i j : Fin 16384) : EReal := ∑ k : Fin 64, a (ix2 i k) * b (ix2 j k)
/-- The squared distance between row `i` of `a` and row `j` of `b`, by the Gram identity, in the order both programs
    evaluate it. -/
def sqd (a b : Cloud) (i j : Fin 16384) : EReal := (nrm a i + nrm b j) - two * dotp a b i j

/-- A squared distance made a distance: clamped below at zero, then the square root. -/
def clampRoot (x : EReal) : EReal := Ideal.sqrt (max x zeroW)

/-- Row `i` of `a`: its distance to the nearest row of `b`, the minimum taken BEFORE the root. -/
def nearB (a b : Cloud) (i : Fin 16384) : EReal := clampRoot (fmin infW fun j : Fin 16384 => sqd a b i j)
/-- The minimum over the sixteen rows `16 r … 16 r + 15` of `a` of the squared distance to row `j` of `b`. -/
def grpMin (a b : Cloud) (r : Fin 1024) (j : Fin 16384) : EReal :=
  fmin infW fun q : Fin 16 => sqd a b ⟨16 * r.val + q.val, by have := r.isLt; have := q.isLt; omega⟩ j
/-- Row `j` of `b`: its distance to the nearest row of `a`, the minimum taken in two stages and BEFORE the root. -/
def nearA (a b : Cloud) (j : Fin 16384) : EReal := clampRoot (fmin infW fun r : Fin 1024 => grpMin a b r j)

/-! ## The same squared distance over one block of 128 rows of `a`

  `x0` is the block of `a`, `x1` all of `b`, and `x2` the row vector of the precomputed `|b j|²`. -/

/-- The squared distance of the block's row `p` to row `j` of `b`, from the block and the precomputed norms. -/
def blkSqd (x0 : (⟨2, ![128, 64]⟩ : Shape).Idx → EReal) (x1 : Cloud) (x2 : (⟨2, ![1, 16384]⟩ : Shape).Idx → EReal)
    (p : Fin 128) (j : Fin 16384) : EReal :=
  ((∑ k : Fin 64, x0 (ix2 p k) * x0 (ix2 p k)) + x2 (ix2 0 j)) - two * ∑ k : Fin 64, x0 (ix2 p k) * x1 (ix2 j k)

/-- The minimum over the block's sixteen rows `16 g … 16 g + 15` of the squared distance to row `j` of `b`. -/
def blkGrp (x0 : (⟨2, ![128, 64]⟩ : Shape).Idx → EReal) (x1 : Cloud) (x2 : (⟨2, ![1, 16384]⟩ : Shape).Idx → EReal)
    (g : Fin 8) (j : Fin 16384) : EReal :=
  fmin infW fun q : Fin 16 => blkSqd x0 x1 x2 ⟨16 * g.val + q.val, by have := g.isLt; have := q.isLt; omega⟩ j

/-! ## The result -/

/-- The sum of all 32768 nearest-neighbour distances. -/
def total (a b : Cloud) : EReal := (∑ i : Fin 16384, nearB a b i) + ∑ j : Fin 16384, nearA a b j
/-- Their mean: the sum divided by the literal `32768.0`. -/
def mean (a b : Cloud) : EReal := Ideal.div (total a b) (Ideal.ofBits .f32 0x47000000#32)

end Cert.Chamfer

end
-- ==== Proof.LibMinFold.lean ====
/-
  Minima at the ideal instance, for any shapes and extents.

  A float minimum reduction of a vector over ONE axis is, at each result index, the fold of `min` from the
  accumulator's value over that axis's coordinates (the result index with the coordinate inserted on the reduced axis):
  the twin, for a minimum, of the library's reading of a maximum reduction.  The word `0x7F800000` of the 32-bit
  format denotes the top element, so such a fold from it is the plain minimum.  The square root of the extended reals
  — the root on `[0, ⊤]`, the bottom element on the negatives — is monotone, and a monotone map commutes with a binary
  minimum, hence with a fold of `min` over any finite family: the map may be taken before or after the minimum.
-/
import Idealize.ShloMosaic.PureOps.Ideal
import Idealize.ShloMosaic.PureOps.Ideal.Laws
import Idealize.ShloMosaic.PureOps.Reduce

noncomputable section

namespace Cert.Lib.MinFold

open Idealize.ShloMosaic

/-- A float `vector.multi_reduction <minimumf>` over one axis, read at the extended reals: the fold of `min` from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The 32-bit word of `+inf` denotes the top element. -/
theorem ofBits_inf_f32 : Ideal.ofBits .f32 0x7F800000#32 = ⊤ := by
  simp [Ideal.ofBits, Ideal.ieee]

/-- The square root of the extended reals (bottom on the negatives) is monotone. -/
theorem sqrt_mono : Monotone Ideal.sqrt := by
  intro a b hab
  induction a using EReal.rec with
  | bot => exact bot_le
  | top =>
    have hb : b = ⊤ := top_le_iff.mp hab
    subst hb
    exact le_rfl
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- A monotone map of the extended reals commutes with a fold of `min` over any finite family: applied to the
    minimum it is the minimum, from its value at the starting point, of its values on the family. -/
theorem map_fold_min {ι : Type*} {g : EReal → EReal} (hg : Monotone g) (s : Finset ι) (b : EReal) (f : ι → EReal) :
    g (s.fold min b f) = s.fold min (g b) fun k => g (f k) :=
  (Finset.fold_hom (op := min) (op' := min) (s := s) (b := b) (f := f) (m := g) (fun _ _ => hg.map_min)).symm

end Cert.Lib.MinFold

end
-- ==== Proof.Laws.lean ====
/-
  Order theory on the extended reals for the chamfer distance: the root of a clamped number is monotone, a monotone
  map commutes with a finite minimum, and a minimum of minima over consecutive groups of sixteen is the minimum over
  the whole family.
-/
import proofs.«126176_j86002425135442_2_alg».proof.Proof.Spec
import proofs.«126176_j86002425135442_2_alg».proof.Proof.LibMinFold

noncomputable section

namespace Cert.Chamfer

open Idealize.ShloMosaic

/-- The word `0.0` denotes zero. -/
theorem zeroW_eq : zeroW = 0 := Ideal.ofBits_zero_f32

/-- The word `+inf` denotes the top element. -/
theorem infW_eq : infW = ⊤ := Cert.Lib.MinFold.ofBits_inf_f32

/-- The square root of the extended reals (bottom on the negatives) is monotone. -/
theorem sqrt_mono : Monotone Ideal.sqrt := Cert.Lib.MinFold.sqrt_mono

/-- Clamping below and then taking the root is monotone. -/
theorem clampRoot_mono : Monotone clampRoot := fun _ _ h => sqrt_mono (max_le_max h le_rfl)

/-- The clamped root of the top element is the top element. -/
theorem clampRoot_infW : clampRoot infW = infW := by
  unfold clampRoot
  rw [infW_eq, max_eq_left le_top]
  rfl

/-- A monotone map commutes with a binary minimum, so with a finite one; the starting value `⊤` is a fixed point. -/
theorem clampRoot_fmin {n : Nat} (hn : 0 < n) (f : Fin n → EReal) :
    clampRoot (fmin infW f) = fmin infW fun k => clampRoot (f k) := by
  unfold fmin
  rw [Cert.Lib.MinFold.map_fold_min clampRoot_mono, clampRoot_infW]

/-- The minimum over 16384 indices, taken as the minimum over 1024 groups of the minima over sixteen consecutive
    indices. -/
theorem fmin_groups (f : Fin 16384 → EReal) :
    (fmin infW fun r : Fin 1024 => fmin infW fun q : Fin 16 =>
        f ⟨16 * r.val + q.val, by have := r.isLt; have := q.isLt; omega⟩) = fmin infW f := by
  unfold fmin
  apply le_antisymm
  · refine (Finset.le_fold_min _).2 ⟨(Finset.fold_min_le _).2 (Or.inl le_rfl), fun x _ => ?_⟩
    have hx := x.isLt
    refine (Finset.fold_min_le _).2 (Or.inr ⟨⟨x.val / 16, by omega⟩, Finset.mem_univ _, ?_⟩)
    refine (Finset.fold_min_le _).2 (Or.inr ⟨⟨x.val % 16, by omega⟩, Finset.mem_univ _, ?_⟩)
    exact le_of_eq (congrArg f (Fin.ext (by show 16 * (x.val / 16) + x.val % 16 = x.val; omega)))
  · refine (Finset.le_fold_min _).2 ⟨(Finset.fold_min_le _).2 (Or.inl le_rfl), fun r _ => ?_⟩
    refine (Finset.le_fold_min _).2 ⟨(Finset.fold_min_le _).2 (Or.inl le_rfl), fun q _ => ?_⟩
    exact (Finset.fold_min_le _).2 (Or.inr ⟨_, Finset.mem_univ _, le_rfl⟩)

/-- The nearest row of `b`: root of the minimum is the minimum of the roots. -/
theorem nearB_eq (a b : Cloud) (i : Fin 16384) :
    nearB a b i = fmin infW fun j : Fin 16384 => clampRoot (sqd a b i j) := by
  unfold nearB
  exact clampRoot_fmin (by norm_num) _

/-- The nearest row of `a`: the two-stage minimum is the minimum over all rows, and the root commutes with it. -/
theorem nearA_eq (a b : Cloud) (j : Fin 16384) :
    nearA a b j = fmin infW fun i : Fin 16384 => clampRoot (sqd a b i j) := by
  unfold nearA grpMin
  exact (congrArg clampRoot (fmin_groups fun i => sqd a b i j)).trans (clampRoot_fmin (by norm_num) _)

end Cert.Chamfer

end
-- ==== Proof.RefValue.lean ====
/-
  The reference program's result, read stage by stage, is the mean of the nearest-neighbour distances.

  Every element of the 16384 × 16384 array of distances is the clamped root of the Gram-identity squared distance; the
  two reductions take its minima along columns and along rows; the concatenation of the two vectors of minima, summed
  over all 32768 indices, is the sum of the one vector plus the sum of the other; and the quotient by 32768 is the mean.
-/
import proofs.«126176_j86002425135442_2_alg».proof.Proof.Spec
import proofs.«126176_j86002425135442_2_alg».proof.Proof.Laws
import proofs.«126176_j86002425135442_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Chamfer

/-- An argument of the reference: a cloud of 16384 points. -/
abbrev Arr : Type := (⟨S16384x64, .f32⟩ : BufTy).Contents (Elt Ideal)

/-! ## The squared norms, the inner products, one distance -/

/-- The reference's row sums of squares of its first argument are the squared norms. -/
theorem v1_eq (x0 : Arr) (i : Fin 16384) : val_main_v1 (F := Ideal) x0 (ix1 i) = nrm x0 i := by
  rw [val_main_v1_apply, val_main_cst_apply, Ideal.ofBits_def, Ideal.ofBits_zero_f32, zero_add]
  unfold nrm
  refine Finset.sum_congr rfl fun k _ => ?_
  rw [val_main_v0_apply, Ideal.mulf_def]
  have e : idx_main_v1 (ix1 i) k = ix2 i k :=
    funext fun a => Fin.ext (by match a with | ⟨0, _⟩ => rfl | ⟨1, _⟩ => rfl)
  rw [e]

/-- The same of its second argument. -/
theorem v4_eq (x1 : Arr) (j : Fin 16384) : val_main_v4 (F := Ideal) x1 (ix1 j) = nrm x1 j := by
  rw [val_main_v4_apply, val_main_cst_0_apply, Ideal.ofBits_def, Ideal.ofBits_zero_f32, zero_add]
  unfold nrm
  refine Finset.sum_congr rfl fun k _ => ?_
  rw [val_main_v3_apply, Ideal.mulf_def]
  have e : idx_main_v4 (ix1 j) k = ix2 j k :=
    funext fun a => Fin.ext (by match a with | ⟨0, _⟩ => rfl | ⟨1, _⟩ => rfl)
  rw [e]

/-- The first norm broadcast along the rows. -/
theorem v6_eq (x0 : Arr) (i j : Fin 16384) : val_main_v6 (F := Ideal) x0 (ix2 i j) = nrm x0 i := by
  rw [val_main_v6_apply, val_main_v2_apply]
  have e : idx_main_v2 (idx_main_v6 (ix2 i j)) = ix1 i :=
    funext fun a => Fin.ext (by match a with | ⟨0, _⟩ => rfl)
  rw [e, v1_eq]

/-- The second norm broadcast down the columns. -/
theorem v7_eq (x1 : Arr) (i j : Fin 16384) : val_main_v7 (F := Ideal) x1 (ix2 i j) = nrm x1 j := by
  rw [val_main_v7_apply, val_main_v5_apply]
  have e : idx_main_v5 (idx_main_v7 (ix2 i j)) = ix1 j :=
    funext fun a => Fin.ext (by match a with | ⟨0, _⟩ => rfl)
  rw [e, v4_eq]

/-- The product with the transpose holds the inner products. -/
theorem v10_eq (x0 x1 : Arr) (i j : Fin 16384) : val_main_v10 (F := Ideal) x0 x1 (ix2 i j) = dotp x0 x1 i j := by
  rw [val_main_v10_apply]
  unfold dotp
  refine Finset.sum_congr rfl fun k _ => ?_
  rw [val_main_v9_apply]
  have el : lidx_main_v10 (ix2 i j) k = ix2 i k :=
    funext fun a => Fin.ext (by match a with | ⟨0, _⟩ => rfl | ⟨1, _⟩ => rfl)
  have er : idx_main_v9 (ridx_main_v10 (ix2 i j) k) = ix2 j k :=
    funext fun a => Fin.ext (by match a with | ⟨0, _⟩ => rfl | ⟨1, _⟩ => rfl)
  rw [el, er]

/-- One element of the array of distances: the clamped root of the squared distance. -/
theorem v16_eq (x0 x1 : Arr) (i j : Fin 16384) :
    val_main_v16 (F := Ideal) x0 x1 (ix2 i j) = clampRoot (sqd x0 x1 i j) := by
  rw [val_main_v16_apply, Ideal.hostUnary_sqrt_def, val_main_v15_apply, Ideal.maximumf_def, val_main_v13_apply,
    Ideal.subf_def, val_main_v8_apply, Ideal.addf_def, val_main_v12_apply, Ideal.mulf_def, v6_eq, v7_eq, v10_eq,
    val_main_v11_apply, val_main_cst_1_apply, val_main_v14_apply, val_main_cst_2_apply, Ideal.ofBits_def,
    Ideal.ofBits_def]
  rfl

/-! ## The two reductions -/

/-- A minimum down the columns of a square array, from `+inf`. -/
theorem reduce_min_d0 (y : S16384x16384.Idx → EReal) (j : Fin 16384) :
    Host.reduce (FloatOps.minimumf (F := Ideal) (φ := .f32)) y (val_main_cst_3 (F := Ideal))
        reducesTo_S16384x16384_S16384_d0 h_S_ (ix1 j)
      = fmin infW fun i : Fin 16384 => y (ix2 i j) := by
  have h : S16384x16384.Reduces [0] S16384 := by decide
  refine (Host.reduce_eq_fold_single (FloatOps.minimumf (F := Ideal) (φ := .f32)) y _
    reducesTo_S16384x16384_S16384_d0 h h_S_ (ix1 j)).trans ?_
  have hf : (y ∘ h.lift (ix1 j)) = fun i : Fin 16384 => y (ix2 i j) :=
    funext fun i => congrArg y (funext fun a => Fin.ext (by match a with | ⟨0, _⟩ => rfl | ⟨1, _⟩ => rfl))
  rw [hf]
  rfl

/-- A minimum along the rows of a square array, from `+inf`. -/
theorem reduce_min_d1 (y : S16384x16384.Idx → EReal) (i : Fin 16384) :
    Host.reduce (FloatOps.minimumf (F := Ideal) (φ := .f32)) y (val_main_cst_4 (F := Ideal))
        reducesTo_S16384x16384_S16384_d1 h_S_ (ix1 i)
      = fmin infW fun j : Fin 16384 => y (ix2 i j) := by
  have h : S16384x16384.Reduces [1] S16384 := by decide
  refine (Host.reduce_eq_fold_single (FloatOps.minimumf (F := Ideal) (φ := .f32)) y _
    reducesTo_S16384x16384_S16384_d1 h h_S_ (ix1 i)).trans ?_
  have hf : (y ∘ h.lift (ix1 i)) = fun j : Fin 16384 => y (ix2 i j) :=
    funext fun j => congrArg y (funext fun a => Fin.ext (by match a with | ⟨0, _⟩ => rfl | ⟨1, _⟩ => rfl))
  rw [hf]
  rfl

/-- The column minima are the distances from the second cloud's points to the first cloud. -/
theorem v17_eq (x0 x1 : Arr) (j : Fin 16384) : val_main_v17 (F := Ideal) x0 x1 (ix1 j) = nearA x0 x1 j := by
  unfold val_main_v17
  refine (reduce_min_d0 (val_main_v16 (F := Ideal) x0 x1) j).trans ?_
  rw [nearA_eq]
  exact congrArg (fmin infW) (funext fun i => v16_eq x0 x1 i j)

/-- The row minima are the distances from the first cloud's points to the second cloud. -/
theorem v18_eq (x0 x1 : Arr) (i : Fin 16384) : val_main_v18 (F := Ideal) x0 x1 (ix1 i) = nearB x0 x1 i := by
  unfold val_main_v18
  refine (reduce_min_d1 (val_main_v16 (F := Ideal) x0 x1) i).trans ?_
  rw [nearB_eq]
  exact congrArg (fmin infW) (funext fun j => v16_eq x0 x1 i j)

/-! ## The sum over the concatenation -/

/-- An index of a vector of 32768 elements is its one coordinate. -/
def idx1Equiv : Fin 32768 ≃ S32768.Idx where
  toFun := ix1
  invFun := fun j => j 0
  left_inv := fun _ => rfl
  right_inv := fun j => (eq_ix1 j).symm

/-- The sum over a concatenation of two vectors is the sum of the two vectors' sums. -/
theorem sum_concat (u v : S16384.Idx → EReal) :
    (∑ j : S32768.Idx, concatenate S32768 0 [⟨S16384, u⟩, ⟨S16384, v⟩] concatenates_S16384_S16384_S32768_d0 j)
      = (∑ a : Fin 16384, u (ix1 a)) + ∑ b : Fin 16384, v (ix1 b) := by
  rw [← Equiv.sum_comp idx1Equiv]
  refine (Fin.sum_univ_add (a := 16384) (b := 16384) fun n : Fin (16384 + 16384) =>
    concatenate S32768 0 [⟨S16384, u⟩, ⟨S16384, v⟩] concatenates_S16384_S16384_S32768_d0 (ix1 (n : Fin 32768))).trans ?_
  refine congrArg₂ (· + ·) ?_ ?_
  · refine Finset.sum_congr rfl fun a _ => ?_
    exact concatenate_pair_apply_left 0 u v concatenates_S16384_S16384_S32768_d0 _ rfl (ix1 a)
      (fun b => match b with | ⟨0, _⟩ => rfl)
  · refine Finset.sum_congr rfl fun b _ => ?_
    exact concatenate_pair_apply_right 0 u v concatenates_S16384_S16384_S32768_d0 _ rfl rfl (ix1 b)
      (fun c => match c with | ⟨0, _⟩ => fun hc => absurd rfl hc)
      (by show b.val + 16384 = 16384 + b.val; omega)

/-! ## The result -/

/-- The reference computes the mean of the nearest-neighbour distances. -/
theorem result_eq (x0 x1 : (⟨S16384x64, .f32⟩ : BufTy).Contents (Elt Ideal)) :
    Cert.ReferenceIdeal.Read.val_main_v21 (F := Ideal) x0 x1 = fun _ => Cert.Chamfer.mean x0 x1 := by
  funext i
  rw [val_main_v21_apply, Ideal.hostDivf_def, val_main_v20_apply, val_main_cst_5_apply, val_main_cst_6_apply,
    Ideal.ofBits_def, Ideal.ofBits_def, Ideal.ofBits_zero_f32, zero_add]
  unfold val_main_v19
  rw [sum_concat]
  simp only [v17_eq, v18_eq]
  unfold mean total
  exact congrArg (fun s => Ideal.div s (Ideal.ofBits .f32 0x47000000#32)) (add_comm _ _)

end Cert.ReferenceIdeal.RefValue

end
-- ==== Proof.KHead.lean ====
/-
  The two arrays the host prepares before the launch, as functions of the argument arrays.

  The kernel's second operand is the cloud `b` with every entry rounded to a narrower format: at the ideal instance a
  change of format is the identity, so that array IS `b`.  Its third operand is the row vector of the squared norms
  `|b j|²`: the sum over the 64 coordinates of the squares, computed from a zero initial value, viewed as a column and
  transposed into a row.
-/
import proofs.«126176_j86002425135442_2_alg».proof.Proof.Spec
import proofs.«126176_j86002425135442_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KHead

open Idealize.ShloMosaic Idealize.ShloMosaic.TcCoe Idealize.ShloMosaic.ValueIdx Idealize.SL.Sem Idealize.ShloMosaic.StableHlo
open Cert.KernelIdeal Cert.KernelIdeal.Gen Cert.Chamfer

variable (m : (ℓ : Loc nD τ sig) → Buf (Elt Ideal) ℓ)

/-- The narrowed copy of `b` the kernel reads is `b`. -/
theorem V_v0 (c : Dev nD) : (V m c main_v0 : S16384x64.Idx → EReal) = m ((c : Thread nD τ).loc main_arg1) := by
  show StableHlo.after hostOps0 (fun b => m (c, b)) (Proc.devRef .tc main_v0) = _
  after_results
  rfl

/-- The row of norms, as the host's operations of `b`. -/
theorem V_v4 (c : Dev nD) : (V m c main_v4 : S1x16384.Idx → EReal)
    = transpose S1x16384 [1, 0] (broadcastInDim S16384x1 ![0] bcast_S16384_S16384x1_0
        (Host.reduceAdd (F := Ideal) (mulf (m ((c : Thread nD τ).loc main_arg1)) (m ((c : Thread nD τ).loc main_arg1)))
          (constant (F := Ideal) S_ .f32 0x00000000#32) reducesTo_S16384x64_S16384_d1 h_S_)) transposes_S16384x1_S1x16384_1_0 := by
  show StableHlo.after hostOps0 (fun b => m (c, b)) (Proc.devRef .tc main_v4) = _
  after_results

/-- The host's row of norms of any cloud `b`, at entry `j`: `|b j|²` (the zero initial value adds nothing). -/
theorem normsRow_apply (b : S16384x64.Idx → EReal) (j : Fin 16384) :
    transpose S1x16384 [1, 0] (broadcastInDim S16384x1 ![0] bcast_S16384_S16384x1_0
        (Host.reduceAdd (F := Ideal) (mulf (F := Ideal) (φ := .f32) b b)
          (constant (F := Ideal) S_ .f32 0x00000000#32) reducesTo_S16384x64_S16384_d1 h_S_)) transposes_S16384x1_S1x16384_1_0 (ix2 0 j)
      = nrm b j := by
  rw [transpose_apply [1, 0] _ transposes_S16384x1_S1x16384_1_0 (ix2 0 j) (ix2 j 0) (fun a => match a with
    | ⟨0, _⟩ => rfl
    | ⟨1, _⟩ => rfl)]
  rw [broadcastInDim_apply _ bcast_S16384_S16384x1_0 _ (ix2 j 0) (ix1 j) (fun a => match a with
    | ⟨0, _⟩ => by show j.val = if (16384 : Nat) = 1 then 0 else j.val; rw [if_neg (by decide)])]
  simp only [Host.reduceAdd, Ideal.hostReduceAdd_def]
  rw [Ideal.hostReduceAdd_single reducesTo_S16384x64_S16384_d1 (by decide)]
  show Ideal.ofBits .f32 0x00000000#32 + _ = _
  rw [Ideal.ofBits_zero_f32, zero_add]
  unfold nrm
  refine Finset.sum_congr rfl fun k _ => ?_
  have e : (Shape.Reduces.lift (s := S16384x64) (t := S16384) (a := 1) (by decide) (ix1 j) k) = ix2 j k :=
    funext fun a => Fin.ext (by match a with | ⟨0, _⟩ => rfl | ⟨1, _⟩ => rfl)
  show b _ * b _ = _
  rw [e]
  rfl

/-- Entry `j` of the row of norms the kernel reads is `|b j|²`. -/
theorem V_v4_apply (c : Dev nD) (j : Fin 16384) :
    (V m c main_v4 : S1x16384.Idx → EReal) (ix2 0 j) = nrm (m ((c : Thread nD τ).loc main_arg1)) j := by
  rw [V_v4]
  exact normsRow_apply _ j

end Cert.KernelIdeal.KHead

end
-- ==== Proof.KBlocks.lean ====
/-
  The launch's 128 grid points and what each one sees and covers.

  Point `t` reads rows `128 t … 128 t + 127` of `a`, all of `b`, and the whole row of norms `|b j|²`; it writes rows
  `128 t … 128 t + 127` of the column of row results and rows `8 t … 8 t + 7` of the 1024 × 16384 table of group minima.
  So the squared distance the body forms from its blocks for the block's row `p` is the clouds' squared distance for row
  `128 t + p`, and the output blocks of the 128 points tile both output arrays.
-/
import proofs.«126176_j86002425135442_2_alg».proof.Proof.Spec
import proofs.«126176_j86002425135442_2_alg».proof.Proof.KHead
import proofs.«126176_j86002425135442_2_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Chamfer

variable (m : (ℓ : Loc nD τ sig) → Buf (Elt Ideal) ℓ)

/-- The grid has 128 points. -/
theorem t_lt (t : Fin cfg0.N) : t.val < 128 := by
  have h := t.isLt
  have hN : cfg0.N = 128 := N_0
  omega

/-- The block index of every window at every point: the first, fourth and fifth windows move down their arrays with
    the point, the second and third stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the block of `a` at point `t` is row `128 t + p` of `a`. -/
theorem iblk0_apply (c : Dev nD) (t : Fin cfg0.N) (p : Fin 128) (k : Fin 64) :
    iblk m c 0 t (ix2 p k) = V m c main_arg0 (ix2 ⟨128 * t.val + p.val, by have := t_lt t; have := p.isLt; omega⟩ k) := by
  obtain ⟨e0, e1, -⟩ := idx_facts t
  show V m c main_arg0 (((cfg0.win 0).blk t).view.emb (ix2 p k)) = V m c main_arg0 _
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 64 + 1 * k.val = k.val; omega

/-- The second window's block is the whole array at every point. -/
theorem iblk1_apply (c : Dev nD) (t : Fin cfg0.N) (j : Fin 16384) (k : Fin 64) :
    iblk m c 1 t (ix2 j k) = V m c main_v0 (ix2 j k) := by
  obtain ⟨-, -, e0, e1, -⟩ := idx_facts t
  show V m c main_v0 (((cfg0.win 1).blk t).view.emb (ix2 j k)) = V m c main_v0 _
  refine congrArg _ (funext fun a => Fin.ext ?_)
  match a with
  | ⟨0, _⟩ => show win0_1.index t (0 : Fin 2) * 16384 + 1 * j.val = j.val; omega
  | ⟨1, _⟩ => show win0_1.index t (1 : Fin 2) * 64 + 1 * k.val = k.val; omega

/-- So is the third's. -/
theorem iblk2_apply (c : Dev nD) (t : Fin cfg0.N) (j : Fin 16384) :
    iblk m c 2 t (ix2 0 j) = V m c main_v4 (ix2 0 j) := by
  obtain ⟨-, -, -, -, e0, e1, -⟩ := idx_facts t
  show V m c main_v4 (((cfg0.win 2).blk t).view.emb (ix2 0 j)) = V m c main_v4 _
  refine congrArg _ (funext fun a => Fin.ext ?_)
  match a with
  | ⟨0, _⟩ => show win0_2.index t (0 : Fin 2) * 1 + 1 * 0 = 0; omega
  | ⟨1, _⟩ => show win0_2.index t (1 : Fin 2) * 16384 + 1 * j.val = j.val; omega

/-- The squared distance the body forms at point `t` for its row `p` and the row `j` of `b` is the clouds' squared
    distance for row `128 t + p`. -/
theorem blkSqd_at (c : Dev nD) (t : Fin cfg0.N) (p : Fin 128) (j : Fin 16384) :
    blkSqd (iblk m c 0 t) (iblk m c 1 t) (iblk m c 2 t) p j
      = sqd (m ((c : Thread nD τ).loc main_arg0)) (m ((c : Thread nD τ).loc main_arg1))
          ⟨128 * t.val + p.val, by have := t_lt t; have := p.isLt; omega⟩ j := by
  have h0 : ∀ k : Fin 64, iblk m c 0 t (ix2 p k)
      = m ((c : Thread nD τ).loc main_arg0) (ix2 ⟨128 * t.val + p.val, by have := t_lt t; have := p.isLt; omega⟩ k) :=
    fun k => (iblk0_apply m c t p k).trans (congrFun (V_main_arg0 m c) _)
  have h1 : ∀ k : Fin 64, iblk m c 1 t (ix2 j k) = m ((c : Thread nD τ).loc main_arg1) (ix2 j k) :=
    fun k => (iblk1_apply m c t j k).trans (congrFun (KHead.V_v0 m c) _)
  have h2 : iblk m c 2 t (ix2 0 j) = nrm (m ((c : Thread nD τ).loc main_arg1)) j :=
    (iblk2_apply m c t j).trans (KHead.V_v4_apply m c j)
  unfold blkSqd sqd dotp
  rw [h2]
  unfold nrm
  simp only [h0, h1]

/-! ## The two output arrays -/

/-- The column of row results: row `i` holds the distance from row `i` of `a` to the nearest row of `b`. -/
def dbaArr (a b : Cloud) : S16384x1.Idx → EReal := fun i => nearB a b ⟨(i 0).val, idx2_lt0 i⟩
/-- The table of group minima: entry `(r, j)` holds the least squared distance from rows `16 r … 16 r + 15` of `a` to
    row `j` of `b`. -/
def colminArr (a b : Cloud) : S1024x16384.Idx → EReal :=
  fun i => grpMin a b ⟨(i 0).val, idx2_lt0 i⟩ ⟨(i 1).val, idx2_lt1 i⟩

/-- An index of the column is in point `t`'s block iff each coordinate is in the block's range on its axis. -/
theorem mem_blk3 (t : Fin cfg0.N) (i : S16384x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v5_0).slice (win0_3.rect t)).set ↔ _
  rw [View.set_slice_whole, Rect.mem_set_unit]
  exact Iff.rfl

/-- The same for the table. -/
theorem mem_blk4 (t : Fin cfg0.N) (i : S1024x16384.Idx) :
    i ∈ ((cfg0.win 4).blk t).view.set ↔ ∀ a : Fin 2, win0_4.index t a * S8x16384.size a ≤ (i a).val ∧ (i a).val < win0_4.index t a * S8x16384.size a + S8x16384.size a := by
  show i ∈ ((View.whole main_v5_1).slice (win0_4.rect t)).set ↔ _
  rw [View.set_slice_whole, Rect.mem_set_unit]
  exact Iff.rfl

/-- Row `r` of the column is written back by point `r / 128`. -/
theorem cover3 (i : S16384x1.Idx) : ∃ t : Fin cfg0.N, (cfg0.win 3).flush t = true ∧ i ∈ ((cfg0.win 3).blk t).view.set := by
  have hN : cfg0.N = 128 := N_0
  have hi0 : (i 0).val < 16384 := idx2_lt0 i
  have hi1 : (i 1).val < 1 := idx2_lt1 i
  refine ⟨⟨(i 0).val / 128, by omega⟩, flush0_3 _, ?_⟩
  obtain ⟨-, -, -, -, -, -, e0, e1, -⟩ := idx_facts ⟨(i 0).val / 128, by omega⟩
  rw [mem_blk3]
  intro a
  match a with
  | ⟨0, _⟩ =>
    show win0_3.index ⟨(i 0).val / 128, _⟩ (0 : Fin 2) * 128 ≤ (i 0).val ∧ (i 0).val < win0_3.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, _⟩ (1 : Fin 2) * 1 ≤ (i 1).val ∧ (i 1).val < win0_3.index ⟨(i 0).val / 128, _⟩ (1 : Fin 2) * 1 + 1
    rw [e1]; omega

/-- Row `r` of the table is written back by point `r / 8`. -/
theorem cover4 (i : S1024x16384.Idx) : ∃ t : Fin cfg0.N, (cfg0.win 4).flush t = true ∧ i ∈ ((cfg0.win 4).blk t).view.set := by
  have hN : cfg0.N = 128 := N_0
  have hi0 : (i 0).val < 1024 := idx2_lt0 i
  have hi1 : (i 1).val < 16384 := idx2_lt1 i
  refine ⟨⟨(i 0).val / 8, by omega⟩, flush0_4 _, ?_⟩
  obtain ⟨-, -, -, -, -, -, -, -, e0, e1⟩ := idx_facts ⟨(i 0).val / 8, by omega⟩
  rw [mem_blk4]
  intro a
  match a with
  | ⟨0, _⟩ =>
    show win0_4.index ⟨(i 0).val / 8, _⟩ (0 : Fin 2) * 8 ≤ (i 0).val ∧ (i 0).val < win0_4.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_4.index ⟨(i 0).val / 8, _⟩ (1 : Fin 2) * 16384 ≤ (i 1).val ∧ (i 1).val < win0_4.index ⟨(i 0).val / 8, _⟩ (1 : Fin 2) * 16384 + 16384
    rw [e1]; omega

end Cert.KernelIdeal.KBlocks

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.KPay.lean ====
/-
  The kernel body's arithmetic, read one element at a time.

  Over one block of 128 rows of the first cloud the body forms the 128 × 16384 array of squared distances to the rows
  of the second cloud by the Gram identity, |a p|² + |b j|² − 2 ⟨a p, b j⟩: the first term is a row sum kept as a column
  and spread along the row, the second the precomputed row vector spread down the rows, the third a matrix product with
  the transposed second cloud. From that array it takes, for each row, the minimum along the row, clamped at zero and
  rooted; and, for each column, the minimum over each of the eight groups of sixteen consecutive rows. Each of these
  is read here at an index: the array is `blkSqd`, a row's result is `clampRoot` of the `fmin` of `blkSqd` along the
  row, and a group's row of minima is `blkGrp`.
-/
import proofs.«126176_j86002425135442_2_alg».proof.Proof.Spec
import proofs.«126176_j86002425135442_2_alg».proof.Proof.Gen.KernelIdeal.Skeleton
import proofs.«126176_j86002425135442_2_alg».proof.Proof.LibKeepDims
import proofs.«126176_j86002425135442_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen Cert.Chamfer
open Cert.Lib.KeepDims Cert.Lib.MinFold

/-! ## A minimum along one axis, read at an index -/

/-- The minimum along a row of a `128 × 16384` array, from `+∞`. -/
theorem rowMin_apply (v : FVec Ideal S128x16384 .f32) (p : Fin 128) :
    multiReduction (F := Ideal) .minimumf [1] S128 v 0x7F800000#32 reduces_S128x16384_S128 (.inl rfl) rfl (ix1 p)
      = fmin infW fun j : Fin 16384 => v (ix2 p j) := by
  refine (multiReduction_minimumf_single v _ _ _ _ (ix1 p)).trans ?_
  unfold fmin infW
  show (Finset.univ : Finset (Fin 16384)).fold min (Ideal.ofBits .f32 0x7F800000#32)
      (v ∘ reduces_S128x16384_S128.lift (ix1 p)) = _
  refine congrArg (Finset.univ.fold min _) (funext fun k => ?_)
  exact congrArg v (funext fun a => Fin.ext (by match a with | ⟨0, _⟩ => rfl | ⟨1, _⟩ => rfl))

/-- The minimum down a column of a `16 × 16384` array, from `+∞`. -/
theorem colMin_apply (w : FVec Ideal S16x16384 .f32) (j : Fin 16384) :
    multiReduction (F := Ideal) .minimumf [0] S16384 w 0x7F800000#32 reduces_S16x16384_S16384 (.inl rfl) rfl (ix1 j)
      = fmin infW fun q : Fin 16 => w (ix2 q j) := by
  refine (multiReduction_minimumf_single w _ _ _ _ (ix1 j)).trans ?_
  unfold fmin infW
  show (Finset.univ : Finset (Fin 16)).fold min (Ideal.ofBits .f32 0x7F800000#32)
      (w ∘ reduces_S16x16384_S16384.lift (ix1 j)) = _
  refine congrArg (Finset.univ.fold min _) (funext fun k => ?_)
  exact congrArg w (funext fun a => Fin.ext (by match a with | ⟨0, _⟩ => rfl | ⟨1, _⟩ => rfl))

/-! ## The squared distance of the block: its three terms, read at `(p, j)` -/

section
variable (x0 : FVec Ideal S128x64 .f32) (x1 : FVec Ideal S16384x64 .bf16) (x2 : FVec Ideal S1x16384 .f32)

/-- The squared norm of row `p` of the block, kept as a column and spread along the row. -/
theorem normA_apply (p : Fin 128) (j : Fin 16384) :
    broadcastTo S128x16384
        (shapeCast S128x1
          (multiReduction (F := Ideal) .add [1] S128 (mulf x0 x0) 0x00000000#32 reduces_S128x64_S128 (.inl rfl) rfl)
          shapeCasts_S128_S128x1)
        broadcasts_S128x1_S128x16384 (ix2 p j)
      = ∑ k : Fin 64, x0 (ix2 p k) * x0 (ix2 p k) := by
  refine (broadcastTo_a1_ab_apply _ _ p j).trans ?_
  refine (shapeCast_a_a1_apply _ _ p 0).trans ?_
  refine (Ideal.multiReduction_add_single _ _ _ _ _ (ix1 p)).trans ?_
  show ∑ k : Fin 64, (mulf x0 x0) (reduces_S128x64_S128.lift (ix1 p) k) = _
  refine Finset.sum_congr rfl fun k _ => ?_
  have e : reduces_S128x64_S128.lift (ix1 p) k = ix2 p k :=
    funext fun a => Fin.ext (by match a with | ⟨0, _⟩ => rfl | ⟨1, _⟩ => rfl)
  rw [e]
  rfl

/-- The precomputed squared norms of the other cloud, one row spread over the block's rows. -/
theorem normB_apply (p : Fin 128) (j : Fin 16384) :
    broadcastTo S128x16384 (shapeCast S1x16384 x2 shapeCasts_S1x16384_S1x16384) broadcasts_S1x16384_S128x16384 (ix2 p j)
      = x2 (ix2 0 j) := by
  refine (broadcastTo_1b_ab_apply _ _ p j).trans ?_
  exact congrFun (shapeCast_self x2 _) _

theorem dot_lhs0 (i : S128x16384.Idx) (q : dot_S128x64_S64x16384_S128x16384_1_0_0_1_n_n.contr.Idx) :
    (dot_S128x64_S64x16384_S128x16384_1_0_0_1_n_n.lhsIdx i q 0).val = (i 0).val := by
  unfold DotDims.lhsIdx
  rw [dif_neg (show ¬(0 : Fin S128x64.rank) ∈ dot_S128x64_S64x16384_S128x16384_1_0_0_1_n_n.lhsBatch by decide),
    dif_pos (show (0 : Fin S128x64.rank) ∈ dot_S128x64_S64x16384_S128x16384_1_0_0_1_n_n.lhsNonContracting by decide)]
  rfl
theorem dot_lhs1 (i : S128x16384.Idx) (q : dot_S128x64_S64x16384_S128x16384_1_0_0_1_n_n.contr.Idx) :
    (dot_S128x64_S64x16384_S128x16384_1_0_0_1_n_n.lhsIdx i q 1).val = (q ⟨0, by decide⟩).val :=
  dot_S128x64_S64x16384_S128x16384_1_0_0_1_n_n.lhsIdx_val_of_single rfl i q
theorem dot_rhs0 (i : S128x16384.Idx) (q : dot_S128x64_S64x16384_S128x16384_1_0_0_1_n_n.contr.Idx) :
    (dot_S128x64_S64x16384_S128x16384_1_0_0_1_n_n.rhsIdx i q 0).val = (q ⟨0, by decide⟩).val :=
  dot_S128x64_S64x16384_S128x16384_1_0_0_1_n_n.rhsIdx_val_of_single rfl i q
theorem dot_rhs1 (i : S128x16384.Idx) (q : dot_S128x64_S64x16384_S128x16384_1_0_0_1_n_n.contr.Idx) :
    (dot_S128x64_S64x16384_S128x16384_1_0_0_1_n_n.rhsIdx i q 1).val = (i 1).val := by
  unfold DotDims.rhsIdx
  rw [dif_neg (show ¬(1 : Fin S64x16384.rank) ∈ dot_S128x64_S64x16384_S128x16384_1_0_0_1_n_n.rhsBatch by decide),
    dif_pos (show (1 : Fin S64x16384.rank) ∈ dot_S128x64_S64x16384_S128x16384_1_0_0_1_n_n.rhsNonContracting by decide)]
  rfl

/-- The inner products of the block's rows with the other cloud's rows: the product with the transposed cloud. -/
theorem dotAB_apply (p : Fin 128) (j : Fin 16384) :
    matmul (F := Ideal) dot_S128x64_S64x16384_S128x16384_1_0_0_1_n_n none (truncf .bf16 x0 bitsLt_bf16_f32)
        (transpose S64x16384 [1, 0] (shapeCast S16384x64 x1 shapeCasts_S16384x64_S16384x64)
          transposes_S16384x64_p1_0_S64x16384)
        (constant (F := Ideal) S128x16384 .f32 0x00000000#32) (ix2 p j)
      = ∑ k : Fin 64, x0 (ix2 p k) * x1 (ix2 j k) := by
  refine (Ideal.matmul_constant_zero_apply dot_S128x64_S64x16384_S128x16384_1_0_0_1_n_n none _ _ (ix2 p j)).trans ?_
  rw [← Equiv.sum_comp (contrEquiv1 dot_S128x64_S64x16384_S128x16384_1_0_0_1_n_n 64 rfl rfl).symm]
  refine Finset.sum_congr rfl fun k _ => ?_
  have hk := contrEquiv1_symm_val dot_S128x64_S64x16384_S128x16384_1_0_0_1_n_n 64 rfl rfl k
  have el : dot_S128x64_S64x16384_S128x16384_1_0_0_1_n_n.lhsIdx (ix2 p j)
      ((contrEquiv1 dot_S128x64_S64x16384_S128x16384_1_0_0_1_n_n 64 rfl rfl).symm k) = ix2 p k :=
    funext fun a => Fin.ext (by
      match a with
      | ⟨0, _⟩ => exact dot_lhs0 _ _
      | ⟨1, _⟩ => exact (dot_lhs1 _ _).trans hk)
  have er : dot_S128x64_S64x16384_S128x16384_1_0_0_1_n_n.rhsIdx (ix2 p j)
      ((contrEquiv1 dot_S128x64_S64x16384_S128x16384_1_0_0_1_n_n 64 rfl rfl).symm k) = ix2 k j :=
    funext fun a => Fin.ext (by
      match a with
      | ⟨0, _⟩ => exact (dot_rhs0 _ _).trans hk
      | ⟨1, _⟩ => exact dot_rhs1 _ _)
  rw [el, er]
  refine congrArg (x0 (ix2 p k) * ·) ?_
  refine (transpose_ix2_apply _ _ k j).trans ?_
  exact congrFun (shapeCast_self x1 _) _

end

section
variable (x0 : Vec Ideal S128x64 .f32) (x1 : Vec Ideal S16384x64 .bf16) (x2 : Vec Ideal S1x16384 .f32)

/-- The kernel's `128 × 16384` array of squared distances, read at `(p, j)`. -/
theorem pay7_apply (p : Fin 128) (j : Fin 16384) :
    k0_pay7 (F := Ideal) x0 x1 x2 (ix2 p j) = blkSqd x0 x1 x2 p j := by
  unfold k0_pay7 blkSqd two
  refine congrArg₂ (· - ·) (congrArg₂ (· + ·) (normA_apply x0 p j) (normB_apply x2 p j)) ?_
  exact congrArg (Ideal.ofBits .f32 0x40000000#32 * ·) (dotAB_apply x0 x1 p j)

end

/-! ## The nearest row of the other cloud, and the group minima -/

section
variable (x0 : Vec Ideal S128x64 .f32) (x1 : Vec Ideal S16384x64 .bf16) (x2 : Vec Ideal S1x16384 .f32)

/-- The clamp at a literal and the root, read at an index. -/
theorem clamp_apply (A : FVec Ideal S128x1 .f32) (b : BitVec 32) (i : S128x1.Idx) :
    sqrt (maximumf A (broadcast S128x1 (Scalar.ofBits (F := Ideal) .f32 b))) i
      = Ideal.sqrt (max (A i) (Ideal.ofBits .f32 b)) := rfl

/-- Row `p` of the block: the minimum of its squared distances, clamped at zero, then the root. -/
theorem pay8_apply (p : Fin 128) :
    k0_pay8 (F := Ideal) x0 x1 x2 (ix2 p 0) = clampRoot (fmin infW fun j : Fin 16384 => blkSqd x0 x1 x2 p j) := by
  unfold k0_pay8 clampRoot zeroW
  refine (clamp_apply _ _ _).trans ?_
  refine congrArg (fun t => Ideal.sqrt (max t (Ideal.ofBits .f32 0x00000000#32))) ?_
  refine (shapeCast_a_a1_apply _ _ p 0).trans ?_
  refine (rowMin_apply _ p).trans ?_
  exact congrArg (fmin infW) (funext fun j => pay7_apply x0 x1 x2 p j)

/-- Sixteen consecutive rows of the array of squared distances, from row `16 g`: their minimum down each column, as a
    row. -/
theorem grp_apply (o : Nat) (g : Fin 8) (ho : o = 16 * g.val) (hs : S128x16384.Slices ![o, 0] S16x16384)
    (j : Fin 16384) :
    shapeCast S1x16384
        (multiReduction (F := Ideal) .minimumf [0] S16384
          (extractStridedSlice S16x16384 ![o, 0] (k0_pay7 (F := Ideal) x0 x1 x2) hs) 0x7F800000#32
          reduces_S16x16384_S16384 (.inl rfl) rfl)
        shapeCasts_S16384_S1x16384 (ix2 0 j)
      = blkGrp x0 x1 x2 g j := by
  subst ho
  unfold blkGrp
  refine (shapeCast_a_1a_apply _ _ 0 j).trans ?_
  refine (colMin_apply _ j).trans ?_
  refine congrArg (fmin infW) (funext fun q => ?_)
  refine (slice2_axis0_apply (16 * g.val) _ hs q j ⟨16 * g.val + q.val, by have := g.isLt; have := q.isLt; omega⟩ rfl).trans ?_
  exact pay7_apply x0 x1 x2 _ j

theorem pay9_apply (j : Fin 16384) : k0_pay9 (F := Ideal) x0 x1 x2 (ix2 0 j) = blkGrp x0 x1 x2 0 j := by
  unfold k0_pay9; exact grp_apply x0 x1 x2 0 0 rfl _ j
theorem pay10_apply (j : Fin 16384) : k0_pay10 (F := Ideal) x0 x1 x2 (ix2 0 j) = blkGrp x0 x1 x2 1 j := by
  unfold k0_pay10; exact grp_apply x0 x1 x2 16 1 rfl _ j
theorem pay1_apply (j : Fin 16384) :
    k0_pay1 (F := Ideal) (k0_pay11 x0 x1 x2) (ix2 0 j) = blkGrp x0 x1 x2 2 j := by
  unfold k0_pay1 k0_pay11; exact grp_apply x0 x1 x2 32 2 rfl _ j
theorem pay2_apply (j : Fin 16384) :
    k0_pay2 (F := Ideal) (k0_pay7 x0 x1 x2) (ix2 0 j) = blkGrp x0 x1 x2 3 j := by
  unfold k0_pay2; exact grp_apply x0 x1 x2 48 3 rfl _ j
theorem pay3_apply (j : Fin 16384) :
    k0_pay3 (F := Ideal) (k0_pay7 x0 x1 x2) (ix2 0 j) = blkGrp x0 x1 x2 4 j := by
  unfold k0_pay3; exact grp_apply x0 x1 x2 64 4 rfl _ j
theorem pay4_apply (j : Fin 16384) :
    k0_pay4 (F := Ideal) (k0_pay7 x0 x1 x2) (ix2 0 j) = blkGrp x0 x1 x2 5 j := by
  unfold k0_pay4; exact grp_apply x0 x1 x2 80 5 rfl _ j
theorem pay5_apply (j : Fin 16384) :
    k0_pay5 (F := Ideal) (k0_pay7 x0 x1 x2) (ix2 0 j) = blkGrp x0 x1 x2 6 j := by
  unfold k0_pay5; exact grp_apply x0 x1 x2 96 6 rfl _ j
theorem pay6_apply (j : Fin 16384) :
    k0_pay6 (F := Ideal) (k0_pay7 x0 x1 x2) (ix2 0 j) = blkGrp x0 x1 x2 7 j := by
  unfold k0_pay6; exact grp_apply x0 x1 x2 112 7 rfl _ j

end

end Cert.KernelIdeal.KPay

end
-- ==== Proof.KOut.lean ====
/-
  What the kernel body leaves in its two output buffers, read one element at a time.

  The first buffer, `128 × 1`, is written once and whole: its row `p` is the distance of the block's row `p` to the
  nearest row of the other cloud. The second, `8 × 16384`, is written as eight rows, row `g` being the column minima over
  the block's sixteen rows `16 g … 16 g + 15`; the eight rows tile the buffer, every row's entries are one function of the
  buffer's index, and so the buffer as a whole is that function.
-/
import proofs.«126176_j86002425135442_2_alg».proof.Proof.Spec
import proofs.«126176_j86002425135442_2_alg».proof.Proof.KPay
import proofs.«126176_j86002425135442_2_alg».proof.Proof.Gen.KernelIdeal.Frame
import Idealize.ShloMosaic.Lib.Pipeline.Value
import Idealize.ShloMosaic.Lib.ValueIdx

noncomputable section

namespace Cert.KernelIdeal.KOut

open Idealize.ShloMosaic Idealize.ShloMosaic.ValueIdx Cert.KernelIdeal Cert.KernelIdeal.Gen Cert.Chamfer

/-- The zero offsets of a whole-buffer access, as the constant function. -/
theorem hz : (![0, 0] : Fin 2 → Nat) = fun _ => 0 := funext fun a => by fin_cases a <;> rfl

section
variable (x0 : Vec Ideal S128x64 .f32) (x1 : Vec Ideal S16384x64 .bf16) (x2 : Vec Ideal S1x16384 .f32)

/-- The first output buffer at row `p`: the block's row `p` to its nearest row of the other cloud. -/
theorem out3_apply (p : Fin 128) :
    out0_3 (F := Ideal) x0 x1 x2 (ix2 p 0) = clampRoot (fmin infW fun j : Fin 16384 => blkSqd x0 x1 x2 p j) := by
  unfold out0_3
  rw [View.canon_unit_zero hz]
  simp only [View.ld_unit_zero (S := S128x64) hz, View.ld_unit_zero (S := S16384x64) hz,
    View.ld_unit_zero (S := S1x16384) hz]
  exact KPay.pay8_apply x0 x1 x2 p

/-- The second output buffer as one function of its index: at `(g, j)` the minimum over group `g` of the squared
    distances to row `j`. -/
def grpAt : S8x16384.Idx → EReal :=
  fun y => blkGrp x0 x1 x2 ⟨(y 0).val, idx2_lt0 y⟩ ⟨(y 1).val, idx2_lt1 y⟩

/-- A row written at row `g` of the buffer whose entries are group `g`'s minima is that function on the row. -/
theorem piece_apply (o : Nat) (g : Fin 8) (ho : o = g.val)
    (inb : ∀ a, (![o, 0] : Fin 2 → Nat) a + S1x16384.size a ≤ S8x16384.size a)
    (w : Vec Ideal S1x16384 .f32) (hw : ∀ j : Fin 16384, w (ix2 0 j) = blkGrp x0 x1 x2 g j)
    (x : (Rect.unit (s := S8x16384) ![o, 0] S1x16384.size inb).shape.Idx) :
    w x = grpAt x0 x1 x2 ((Rect.unit (s := S8x16384) ![o, 0] S1x16384.size inb).emb x) := by
  subst ho
  obtain ⟨q, j, rfl⟩ : ∃ (q : Fin 1) (j : Fin 16384), x = ix2 q j := ⟨x 0, x 1, eq_ix2 x⟩
  obtain rfl : q = 0 := Subsingleton.elim _ _
  refine (hw j).trans ?_
  unfold grpAt
  have e0 : g = ⟨((Rect.unit (s := S8x16384) ![g.val, 0] S1x16384.size inb).emb (ix2 0 j) 0).val, idx2_lt0 _⟩ :=
    Fin.ext (by show g.val = g.val + 1 * 0; omega)
  have e1 : j = ⟨((Rect.unit (s := S8x16384) ![g.val, 0] S1x16384.size inb).emb (ix2 0 j) 1).val, idx2_lt1 _⟩ :=
    Fin.ext (by show j.val = 0 + 1 * j.val; omega)
  exact congrArg₂ (blkGrp x0 x1 x2) e0 e1

/-- The second output buffer at `(g, j)`: the minimum over the block's rows `16 g … 16 g + 15` of the squared distance
    to row `j` of the other cloud. -/
theorem out4_apply (g : Fin 8) (j : Fin 16384) :
    out0_4 (F := Ideal) x0 x1 x2 (ix2 g j) = blkGrp x0 x1 x2 g j := by
  unfold out0_4
  simp only [View.ld_unit_zero (S := S128x64) hz, View.ld_unit_zero (S := S16384x64) hz,
    View.ld_unit_zero (S := S1x16384) hz]
  refine (View.canon_apply_of_pieces (grpAt x0 x1 x2) _ ?_ (ix2 g j) (cover0_4 _ _ _ _ _ _ _ _ (ix2 g j))).trans ?_
  · intro p hp
    simp only [List.mem_cons, List.mem_nil_iff, or_false] at hp
    rcases hp with rfl | rfl | rfl | rfl | rfl | rfl | rfl | rfl
    · dsimp only
      exact piece_apply x0 x1 x2 7 7 rfl inb_S8x16384_S1x16384_7_0 (k0_pay6 (k0_pay7 x0 x1 x2)) (KPay.pay6_apply x0 x1 x2)
    · dsimp only
      exact piece_apply x0 x1 x2 6 6 rfl inb_S8x16384_S1x16384_6_0 (k0_pay5 (k0_pay7 x0 x1 x2)) (KPay.pay5_apply x0 x1 x2)
    · dsimp only
      exact piece_apply x0 x1 x2 5 5 rfl inb_S8x16384_S1x16384_5_0 (k0_pay4 (k0_pay7 x0 x1 x2)) (KPay.pay4_apply x0 x1 x2)
    · dsimp only
      exact piece_apply x0 x1 x2 4 4 rfl inb_S8x16384_S1x16384_4_0 (k0_pay3 (k0_pay7 x0 x1 x2)) (KPay.pay3_apply x0 x1 x2)
    · dsimp only
      exact piece_apply x0 x1 x2 3 3 rfl inb_S8x16384_S1x16384_3_0 (k0_pay2 (k0_pay7 x0 x1 x2)) (KPay.pay2_apply x0 x1 x2)
    · dsimp only
      exact piece_apply x0 x1 x2 2 2 rfl inb_S8x16384_S1x16384_2_0 (k0_pay1 (k0_pay11 x0 x1 x2)) (KPay.pay1_apply x0 x1 x2)
    · dsimp only
      exact piece_apply x0 x1 x2 1 1 rfl inb_S8x16384_S1x16384_1_0 (k0_pay10 x0 x1 x2) (KPay.pay10_apply x0 x1 x2)
    · dsimp only
      exact piece_apply x0 x1 x2 0 0 rfl inb_S8x16384_S1x16384_0_0 (k0_pay9 x0 x1 x2) (KPay.pay9_apply x0 x1 x2)
  · rfl

end

end Cert.KernelIdeal.KOut

end
-- ==== Proof.KRegion.lean ====
/-
  The two arrays the launch leaves, each as one function of the clouds.

  Point `t` writes back, into rows `128 t … 128 t + 127` of the column, the clamped root of the least squared distance from
  each of its rows of `a` to the rows of `b`; and into rows `8 t … 8 t + 7` of the table, for each of its eight groups of
  sixteen rows, the least squared distance from the group to each row of `b`.  Row `p` of the block is row `128 t + p` of
  `a`, and group `g` of the block is group `8 t + g` of `a` (its rows are `128 t + 16 g + q = 16 (8 t + g) + q`), so every
  point writes a block of ONE function of the array index; the blocks tile both arrays, which therefore end holding
  those functions everywhere.
-/
import proofs.«126176_j86002425135442_2_alg».proof.Proof.Spec
import proofs.«126176_j86002425135442_2_alg».proof.Proof.KBlocks
import proofs.«126176_j86002425135442_2_alg».proof.Proof.KOut
import proofs.«126176_j86002425135442_2_alg».proof.Proof.Gen.KernelIdeal.Frame
import Idealize.ShloMosaic.Lib.Pipeline.Value
import Idealize.ShloMosaic.Lib.ValueIdx

set_option maxRecDepth 16384

noncomputable section

namespace Cert.KernelIdeal.KRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Chamfer Cert.KernelIdeal.KBlocks

variable (m : (ℓ : Loc nD τ sig) → Buf (Elt Ideal) ℓ)

/-- The cloud `a` as launched, on core `c`. -/
abbrev cloudA (c : Dev nD) : Cloud := m ((c : Thread nD τ).loc main_arg0)
/-- The cloud `b` as launched, on core `c`. -/
abbrev cloudB (c : Dev nD) : Cloud := m ((c : Thread nD τ).loc main_arg1)

set_option maxRecDepth 200000 in
/-- What point `t` writes back into the column is block `t` of the column of row results. -/
theorem flushed3_eq (c : Dev nD) (t : Fin cfg0.N) :
    (dats m 0 c).flushed 3 t = ((cfg0.win 3).blk t).view.read (Elt Ideal) (dbaArr (cloudA m c) (cloudB m c)) := by
  show (cfg0.win 3).cut (grid0.coords t) ((dats m 0 c).after 3 t) = _
  rw [after0_3]
  funext y
  obtain ⟨p, q, rfl⟩ : ∃ (p : Fin 128) (q : Fin 1), y = ix2 p q := ⟨y 0, y 1, eq_ix2 y⟩
  obtain rfl : q = 0 := Subsingleton.elim _ _
  show out0_3 (iblk m c 0 t) (iblk m c 1 t) (iblk m c 2 t) (ix2 p 0)
    = dbaArr (cloudA m c) (cloudB m c) (((cfg0.win 3).blk t).view.emb (ix2 p 0))
  refine (KOut.out3_apply (iblk m c 0 t) (iblk m c 1 t) (iblk m c 2 t) p).trans ?_
  have hf : (fun j : Fin 16384 => blkSqd (iblk m c 0 t) (iblk m c 1 t) (iblk m c 2 t) p j)
      = fun j => sqd (cloudA m c) (cloudB m c) ⟨128 * t.val + p.val, by have := t_lt t; have := p.isLt; omega⟩ j :=
    funext fun j => blkSqd_at m c t p j
  rw [hf]
  have he : ((((cfg0.win 3).blk t).view.emb (ix2 p 0)) 0).val = 128 * t.val + p.val := by
    obtain ⟨-, -, -, -, -, -, e0, -⟩ := idx_facts t
    show win0_3.index t (0 : Fin 2) * 128 + 1 * p.val = 128 * t.val + p.val
    omega
  show nearB (cloudA m c) (cloudB m c) ⟨128 * t.val + p.val, _⟩ = nearB (cloudA m c) (cloudB m c) ⟨_, _⟩
  exact congrArg (nearB (cloudA m c) (cloudB m c)) (Fin.ext he.symm)

set_option maxRecDepth 200000 in
/-- What point `t` writes back into the table is block `t` of the table of group minima. -/
theorem flushed4_eq (c : Dev nD) (t : Fin cfg0.N) :
    (dats m 0 c).flushed 4 t = ((cfg0.win 4).blk t).view.read (Elt Ideal) (colminArr (cloudA m c) (cloudB m c)) := by
  show (cfg0.win 4).cut (grid0.coords t) ((dats m 0 c).after 4 t) = _
  rw [after0_4]
  funext y
  obtain ⟨g, j, rfl⟩ : ∃ (g : Fin 8) (j : Fin 16384), y = ix2 g j := ⟨y 0, y 1, eq_ix2 y⟩
  show out0_4 (iblk m c 0 t) (iblk m c 1 t) (iblk m c 2 t) (ix2 g j)
    = colminArr (cloudA m c) (cloudB m c) (((cfg0.win 4).blk t).view.emb (ix2 g j))
  refine (KOut.out4_apply (iblk m c 0 t) (iblk m c 1 t) (iblk m c 2 t) g j).trans ?_
  have ht := t_lt t
  have he0 : ((((cfg0.win 4).blk t).view.emb (ix2 g j)) 0).val = 8 * t.val + g.val := by
    obtain ⟨-, -, -, -, -, -, -, -, e0, -⟩ := idx_facts t
    show win0_4.index t (0 : Fin 2) * 8 + 1 * g.val = 8 * t.val + g.val
    omega
  have he1 : ((((cfg0.win 4).blk t).view.emb (ix2 g j)) 1).val = j.val := by
    obtain ⟨-, -, -, -, -, -, -, -, -, e1⟩ := idx_facts t
    show win0_4.index t (1 : Fin 2) * 16384 + 1 * j.val = j.val
    omega
  have hg : colminArr (cloudA m c) (cloudB m c) (((cfg0.win 4).blk t).view.emb (ix2 g j))
      = grpMin (cloudA m c) (cloudB m c) ⟨8 * t.val + g.val, by have := g.isLt; omega⟩ j := by
    show grpMin (cloudA m c) (cloudB m c) ⟨_, _⟩ ⟨_, _⟩ = _
    exact congrArg₂ (grpMin (cloudA m c) (cloudB m c)) (Fin.ext he0) (Fin.ext he1)
  rw [hg]
  unfold blkGrp grpMin
  refine congrArg (fmin infW) (funext fun q => ?_)
  refine (blkSqd_at m c t ⟨16 * g.val + q.val, by have := g.isLt; have := q.isLt; omega⟩ j).trans ?_
  exact congrArg (fun i => sqd (cloudA m c) (cloudB m c) i j) (Fin.ext (by
    show 128 * t.val + (16 * g.val + q.val) = 16 * (8 * t.val + g.val) + q.val; omega))

/-- The column after the launch: every row's clamped root of its least squared distance. -/
theorem final3 (c : Dev nD) : (dats m 0 c).arrAt 3 cfg0.N = dbaArr (cloudA m c) (cloudB m c) :=
  (dats m 0 c).arrAt_eq_of_cover 3 (dbaArr (cloudA m c) (cloudB m c)) (fun t _ => flushed3_eq m c t) cover3

/-- The table after the launch: every group's least squared distance to every row of `b`. -/
theorem final4 (c : Dev nD) : (dats m 0 c).arrAt 4 cfg0.N = colminArr (cloudA m c) (cloudB m c) :=
  (dats m 0 c).arrAt_eq_of_cover 4 (colminArr (cloudA m c) (cloudB m c)) (fun t _ => flushed4_eq m c t) cover4

end Cert.KernelIdeal.KRegion

end
-- ==== Proof.KTailDef.lean ====
/-
  The host's lines after the launch, as ONE function of the two arrays the launch leaves.

  From the column of row results `d` and the table of group minima `cm` they compute
  `(Σ_i d i  +  Σ_j √(max (min_r cm (r, j)) 0)) / 32768`: the column flattened and summed; the table reduced down its
  1024 rows by a minimum from `+inf`, clamped at zero, rooted and summed; the two sums added and divided.
-/
import proofs.«126176_j86002425135442_2_alg».proof.Proof.Spec
import proofs.«126176_j86002425135442_2_alg».proof.Proof.Gen.KernelIdeal

noncomputable section

namespace Cert.KernelIdeal.KTail

open Idealize.ShloMosaic Cert.KernelIdeal Cert.KernelIdeal.Gen

/-- The lines after the launch. -/
def tail (d : S16384x1.Idx → EReal) (cm : S1024x16384.Idx → EReal) : S_.Idx → EReal :=
  Host.divf (F := Ideal) (φ := .f32)
    (addf (F := Ideal) (φ := .f32)
      (Host.reduceAdd (F := Ideal) (φ := .f32) (shapeCast S16384 d shapeCasts_S16384x1_S16384)
        (constant (F := Ideal) S_ .f32 0x00000000#32) reducesTo_S16384_S_d0 h_S_)
      (Host.reduceAdd (F := Ideal) (φ := .f32)
        (Host.sqrt (F := Ideal) (φ := .f32) (maximumf (F := Ideal) (φ := .f32)
          (Host.reduce (FloatOps.minimumf (F := Ideal) (φ := .f32)) cm (constant (F := Ideal) S_ .f32 0x7F800000#32)
            reducesTo_S1024x16384_S16384_d0 h_S_)
          (broadcastInDim S16384 ![] bcast_S_S16384 (constant (F := Ideal) S_ .f32 0x00000000#32))))
        (constant (F := Ideal) S_ .f32 0x00000000#32) reducesTo_S16384_S_d0 h_S_))
    (constant (F := Ideal) S_ .f32 0x47000000#32)

end Cert.KernelIdeal.KTail

end
-- ==== Proof.KTailRun.lean ====
/-
  What the program's result buffer holds once the lines after the launch have run: those lines' one function of the two
  arrays as the launch leaves them.
-/
import proofs.«126176_j86002425135442_2_alg».proof.Proof.Spec
import proofs.«126176_j86002425135442_2_alg».proof.Proof.KTailDef
import proofs.«126176_j86002425135442_2_alg».proof.Proof.Gen.KernelIdeal.Frame
import Idealize.ShloMosaic.Lib.StableHlo.Run
import Idealize.ShloMosaic.Lib.Pipeline.Value

set_option maxRecDepth 16384

noncomputable section

namespace Cert.KernelIdeal.KTail

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Chamfer

variable (m : (ℓ : Loc nD τ sig) → Buf (Elt Ideal) ℓ)

/-- After the lines that follow the launch the result buffer holds `tail` of the launch's two output arrays: the
    lines read those two arrays where the launch left them and nothing else of its making. -/
theorem tail_run (c : Dev nD) :
    (Pipeline.afterTail₀ cfgs (dats m) 0 (V0 m) [hostOps1] c main_v14 : S_.Idx → EReal)
      = tail ((dats m 0 c).arrAt 3 cfg0.N) ((dats m 0 c).arrAt 4 cfg0.N) := by
  unfold Pipeline.afterTail₀
  show StableHlo.after hostOps1 _ (Proc.devRef .tc main_v14) = _
  after_results
  have e3 : Pipeline.withArrays (cfgs 0).spec c (V0 m c) (fun w => (dats m 0 c).arrAt w (cfgs 0).N) (Proc.devRef .tc main_v5_0)
      = (dats m 0 c).arrAt 3 cfg0.N :=
    Pipeline.withArrays_arr spec0 launch0.win.arr_inj c (V0 m c) (fun w => (dats m 0 c).arrAt w cfg0.N) 3
  have e4 : Pipeline.withArrays (cfgs 0).spec c (V0 m c) (fun w => (dats m 0 c).arrAt w (cfgs 0).N) (Proc.devRef .tc main_v5_1)
      = (dats m 0 c).arrAt 4 cfg0.N :=
    Pipeline.withArrays_arr spec0 launch0.win.arr_inj c (V0 m c) (fun w => (dats m 0 c).arrAt w cfg0.N) 4
  rw [e3, e4]
  rfl

end Cert.KernelIdeal.KTail

end
-- ==== Proof.KTailValue.lean ====
/-
  The lines after the launch, at the arrays the launch leaves, give the mean nearest-neighbour distance.

  The column of row results, flattened and summed from zero, is the sum of the distances from the first cloud's points
  to the second cloud.  The table of group minima, reduced down its 1024 rows by a minimum from `+inf`, then clamped
  at zero and rooted, holds in column `j` the distance from point `j` of the second cloud to the first cloud: its sum
  from zero is the other half of the total.  The quotient of the two sums' sum by 32768 is the mean.
-/
import proofs.«126176_j86002425135442_2_alg».proof.Proof.Spec
import proofs.«126176_j86002425135442_2_alg».proof.Proof.Laws
import proofs.«126176_j86002425135442_2_alg».proof.Proof.KBlocks
import proofs.«126176_j86002425135442_2_alg».proof.Proof.KTailDef
import Idealize.ShloMosaic.Lib.Pipeline.Value
import Idealize.ShloMosaic.Lib.ValueIdx
import Idealize.ShloMosaic.PureOps.Ideal.Laws

noncomputable section

namespace Cert.KernelIdeal.KTail

open Idealize.ShloMosaic Idealize.ShloMosaic.ValueIdx Cert.KernelIdeal Cert.KernelIdeal.Gen Cert.Chamfer
  Cert.KernelIdeal.KBlocks

/-! ## A sum over a vector's indices -/

/-- An index of a vector of 16384 elements is its one coordinate. -/
def idx1Equiv : S16384.Idx ≃ Fin 16384 where
  toFun := fun i => i 0
  invFun := ix1
  left_inv := fun i => (eq_ix1 i).symm
  right_inv := fun _ => rfl

/-- The host's sum of a vector into a scalar, from the literal zero, is the sum of its 16384 elements. -/
theorem reduceAdd_vec (x : S16384.Idx → EReal) (i : S_.Idx) :
    Host.reduceAdd (F := Ideal) (φ := .f32) x (constant (F := Ideal) S_ .f32 0x00000000#32) reducesTo_S16384_S_d0 h_S_ i
      = ∑ k : Fin 16384, x (ix1 k) := by
  simp only [Host.reduceAdd, Ideal.hostReduceAdd_def]
  refine (Ideal.hostReduceAdd_total reducesTo_S16384_S_d0 (fun b => b.elim0) x _ i).trans ?_
  rw [constant_apply, Ideal.ofBits_zero_f32, zero_add]
  exact (Equiv.sum_comp idx1Equiv.symm x).symm

/-! ## The column of row results -/

/-- The sum of the flattened column of row results. -/
theorem sum_rows (a b : Cloud) (i : S_.Idx) :
    Host.reduceAdd (F := Ideal) (φ := .f32) (shapeCast S16384 (dbaArr a b) shapeCasts_S16384x1_S16384)
        (constant (F := Ideal) S_ .f32 0x00000000#32) reducesTo_S16384_S_d0 h_S_ i
      = ∑ k : Fin 16384, nearB a b k := by
  rw [reduceAdd_vec]
  refine Finset.sum_congr rfl fun k _ => ?_
  refine (shapeCast_apply (dbaArr a b) shapeCasts_S16384x1_S16384 (ix1 k) (ix2 k 0) (by
    rw [Shape.rowMajor_val_two, Shape.rowMajor_val_one]; show k.val * 1 + 0 = k.val; omega)).trans ?_
  rfl

/-! ## The table of group minima -/

/-- The minimum down the 1024 rows of a table, from `+inf`, at column `j`. -/
theorem colmin_apply (cm : S1024x16384.Idx → EReal) (j : Fin 16384) :
    Host.reduce (FloatOps.minimumf (F := Ideal) (φ := .f32)) cm (constant (F := Ideal) S_ .f32 0x7F800000#32)
        reducesTo_S1024x16384_S16384_d0 h_S_ (ix1 j)
      = fmin infW fun r : Fin 1024 => cm (ix2 r j) := by
  have h : S1024x16384.Reduces [0] S16384 := by decide
  refine (Host.reduce_eq_fold_single (FloatOps.minimumf (F := Ideal) (φ := .f32)) cm _
    reducesTo_S1024x16384_S16384_d0 h h_S_ (ix1 j)).trans ?_
  have hf : (cm ∘ h.lift (ix1 j)) = fun r : Fin 1024 => cm (ix2 r j) :=
    funext fun r => congrArg cm (funext fun a => Fin.ext (by match a with | ⟨0, _⟩ => rfl | ⟨1, _⟩ => rfl))
  rw [hf]
  rfl

/-- The host's square root of a vector, at an index. -/
theorem hostSqrt_apply (y : S16384.Idx → EReal) (i : S16384.Idx) :
    Host.sqrt (F := Ideal) (φ := .f32) y i = Ideal.sqrt (y i) := rfl

/-- The column minimum clamped at zero and rooted, at column `j`. -/
theorem root_apply (cm : S1024x16384.Idx → EReal) (j : Fin 16384) :
    Host.sqrt (F := Ideal) (φ := .f32) (maximumf (F := Ideal) (φ := .f32)
        (Host.reduce (FloatOps.minimumf (F := Ideal) (φ := .f32)) cm (constant (F := Ideal) S_ .f32 0x7F800000#32)
          reducesTo_S1024x16384_S16384_d0 h_S_)
        (broadcastInDim S16384 ![] bcast_S_S16384 (constant (F := Ideal) S_ .f32 0x00000000#32))) (ix1 j)
      = clampRoot (fmin infW fun r : Fin 1024 => cm (ix2 r j)) := by
  rw [hostSqrt_apply, maximumf_apply, colmin_apply,
    broadcastInDim_apply ![] bcast_S_S16384 (constant (F := Ideal) S_ .f32 0x00000000#32) (ix1 j) ix0 (fun a => a.elim0),
    constant_apply]
  rfl

/-- The sum over the columns of the clamped roots of the table's column minima. -/
theorem sum_cols (a b : Cloud) (i : S_.Idx) :
    Host.reduceAdd (F := Ideal) (φ := .f32)
        (Host.sqrt (F := Ideal) (φ := .f32) (maximumf (F := Ideal) (φ := .f32)
          (Host.reduce (FloatOps.minimumf (F := Ideal) (φ := .f32)) (colminArr a b) (constant (F := Ideal) S_ .f32 0x7F800000#32)
            reducesTo_S1024x16384_S16384_d0 h_S_)
          (broadcastInDim S16384 ![] bcast_S_S16384 (constant (F := Ideal) S_ .f32 0x00000000#32))))
        (constant (F := Ideal) S_ .f32 0x00000000#32) reducesTo_S16384_S_d0 h_S_ i
      = ∑ j : Fin 16384, nearA a b j := by
  rw [reduceAdd_vec]
  refine Finset.sum_congr rfl fun j _ => ?_
  rw [root_apply]
  unfold nearA
  exact congrArg (fun f : Fin 1024 → EReal => clampRoot (fmin infW f)) (funext fun r => rfl)

/-! ## The result -/

/-- The host's quotient of two scalars, at the one index. -/
theorem hostDivf_apply (x y : S_.Idx → EReal) (i : S_.Idx) :
    Host.divf (F := Ideal) (φ := .f32) x y i = Ideal.div (x i) (y i) := rfl

/-- The lines after the launch, at the arrays the launch leaves, give the mean nearest-neighbour distance. -/
theorem tail_value (a b : Cloud) : tail (dbaArr a b) (colminArr a b) = fun _ => mean a b := by
  funext i
  unfold tail
  rw [hostDivf_apply, addf_apply, sum_rows, sum_cols, constant_apply]
  rfl

end Cert.KernelIdeal.KTail

end
-- ==== Proof.KValue.lean ====
/-
  The kernel program's run, read: its result is the mean nearest-neighbour distance of the two clouds.

  The generated frame run ends with each output array of the launch at what the launch's points wrote and every other
  buffer as the host's later lines leave it.  The result buffer is one of those: it holds the later lines' function of
  the launch's two output arrays, which are the column of row results and the table of group minima, and that function
  of those two arrays is the mean.
-/
import proofs.«126176_j86002425135442_2_alg».proof.Proof.Spec
import proofs.«126176_j86002425135442_2_alg».proof.Proof.KBlocks
import proofs.«126176_j86002425135442_2_alg».proof.Proof.KRegion
import proofs.«126176_j86002425135442_2_alg».proof.Proof.KTailDef
import proofs.«126176_j86002425135442_2_alg».proof.Proof.KTailRun
import proofs.«126176_j86002425135442_2_alg».proof.Proof.KTailValue
import proofs.«126176_j86002425135442_2_alg».proof.Proof.Gen.KernelIdeal.Frame

noncomputable section

namespace Cert.KernelIdeal.KValue

open Idealize.ShloMosaic Idealize.ShloMosaic.TcCoe Idealize.SL.Sem
open Idealize.ShloMosaic.Pipeline (Dat Cfg Window)
open Cert.KernelIdeal Cert.KernelIdeal.Gen Cert.Chamfer

variable (m : (ℓ : Loc nD τ sig) → Buf (Elt Ideal) ℓ) (ρ : Dev nD → PrngReg)

/-- After the lines that follow the launch the result buffer holds the mean. -/
theorem result_eq (c : Dev nD) :
    (Pipeline.afterTail₀ cfgs (dats m) 0 (V0 m) [hostOps1] c main_v14 : S_.Idx → EReal)
      = fun _ => mean (m ((c : Thread nD τ).loc main_arg0)) (m ((c : Thread nD τ).loc main_arg1)) := by
  rw [KTail.tail_run, KRegion.final3, KRegion.final4]
  exact KTail.tail_value _ _

/-- Every weakly fair execution of the kernel program terminates with the result buffer at the mean nearest-neighbour
    distance of the clouds as launched, and the clouds unchanged. -/
theorem run : θ_run defs (onTc (τ := τ) (main (F := Ideal))) ⟨m, fun _ => 0, ρ⟩ fun r => ∀ c : Dev nD,
      r.2.mem ((c.tc : Thread nD τ).loc main_v14)
        = (fun _ => mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.KValue

end
-- ==== Proof.lean ====
/-
  The chamfer distance of two clouds of 16384 points in 64 dimensions, computed two ways, is one number.

  Both programs take every squared distance by the Gram identity `(|a i|² + |b j|²) − 2 ⟨a i, b j⟩` and return the mean,
  over all 32768 points, of each point's distance to the nearest point of the other cloud.  The reference clamps at
  zero and roots all 16384 × 16384 squared distances and then takes minima along rows and along columns.  The kernel
  program works through `a` in 128 blocks of 128 rows against all of `b`, with the norms `|b j|²` summed once beforehand:
  a block's rows get their minimum over `j` at once, clamped and rooted; its eight groups of sixteen rows each get a
  column minimum, left raw, and only after the launch are the 1024 group minima of a column reduced to one, clamped and
  rooted.  At the ideal instance the narrowing of `a` and `b` before the product is the identity, a zero initial value
  adds nothing to a sum, and `x ↦ √(max x 0)` is monotone on the extended reals, so it commutes with a minimum; a
  minimum of group minima is the minimum; and the two orders of the final sum agree because addition commutes.  None
  of this uses that the inputs are finite.

  The three frames: the two kernel programs' are the generated ones, the reference's is its generated run with the result
  dropped.  The idealization rewrote no operation, so there is nothing to preserve.
-/
import proofs.«126176_j86002425135442_2_alg».proof.Defs
import proofs.«126176_j86002425135442_2_alg».proof.Proof.Gen.Kernel
import proofs.«126176_j86002425135442_2_alg».proof.Proof.Gen.Kernel.Skeleton
import proofs.«126176_j86002425135442_2_alg».proof.Proof.Gen.Kernel.Launch
import proofs.«126176_j86002425135442_2_alg».proof.Proof.Gen.Kernel.Points
import proofs.«126176_j86002425135442_2_alg».proof.Proof.Gen.Kernel.Frame
import proofs.«126176_j86002425135442_2_alg».proof.Proof.Gen.KernelIdeal
import proofs.«126176_j86002425135442_2_alg».proof.Proof.Gen.KernelIdeal.Skeleton
import proofs.«126176_j86002425135442_2_alg».proof.Proof.Gen.KernelIdeal.Launch
import proofs.«126176_j86002425135442_2_alg».proof.Proof.Gen.KernelIdeal.Points
import proofs.«126176_j86002425135442_2_alg».proof.Proof.Gen.KernelIdeal.Frame
import proofs.«126176_j86002425135442_2_alg».proof.Proof.Gen.ReferenceIdeal
import proofs.«126176_j86002425135442_2_alg».proof.Proof.Gen.Pre_finite_inputs
import proofs.«126176_j86002425135442_2_alg».proof.Proof.Gen.ReferenceIdeal.Run
import proofs.«126176_j86002425135442_2_alg».proof.Proof.Gen.ReferenceIdeal.Read
import proofs.«126176_j86002425135442_2_alg».proof.Proof.Spec
import proofs.«126176_j86002425135442_2_alg».proof.Proof.RefValue
import proofs.«126176_j86002425135442_2_alg».proof.Proof.KValue
import Idealize.ShloMosaic.Adequacy
import Idealize.ShloMosaic.Init

noncomputable section

namespace Cert.Proof

open Idealize.ShloMosaic Idealize.ShloMosaic.TcCoe Idealize.SL.Sem

/-- The printed kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two clouds both idealized programs end with the clouds' mean nearest-neighbour
    distance in their result buffers: the kernel program by its run read through the launch and the lines after it,
    the reference by its run read operation by operation. -/
theorem algebraic : Cert.algebraic_KernelIdeal_ReferenceIdeal := by
  intro m ρ m' ρ' _ hagree
  refine ⟨fun c => fun _ => Cert.Chamfer.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _).trans ?_
  rw [Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
